-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S256x4096 : Shape := ⟨2, ![256, 4096]⟩

abbrev nBuf : Space → Nat
  | .hbm => 5
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096x4096, .bf16⟩
  | .hbm, ⟨4, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S4096x4096, .bf16⟩
  | .local _ .vmem, ⟨3, _⟩ => ⟨S256x4096, .f32⟩
  | .local _ .vmem, ⟨4, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S4096x4096_S4096x4096_1_0 : S4096x4096.Transposes [1, 0] S4096x4096
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  dot_S256x4096_S4096x4096_S256x4096_1_0_0_1_n_n_wf : DotDims.WF S256x4096 S4096x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x4096.size a ≤ S4096x4096.size a
  hwx0_1 : ∀ i : grid0.Coords, EltTy.bits .bf16 = 32 ∨ (Rect.block (s := S4096x4096) S4096x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S8192x4096.size a
  hwx0_2 : ∀ i : grid0.Coords, EltTy.bits .f32 = 32 ∨ (Rect.block (s := S8192x4096) S256x4096.size (cc0_transform_2 i) (hinb0_2 i)).WholeWords (EltTy.packing .f32)

variable [Facts₀]

def dot_S256x4096_S4096x4096_S256x4096_1_0_0_1_n_n : DotDims S256x4096 S4096x4096 S256x4096 where
  lhsContracting := [1]
  rhsContracting := [0]
  lhsNonContracting := [0]
  rhsNonContracting := [1]
  lhsBatch := []
  rhsBatch := []
  wf := dot_S256x4096_S4096x4096_S256x4096_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S4096x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S8192x4096, .f32⟩
  | .local _ .vmem, ⟨0, _⟩ => ⟨S512x1024, .f32⟩
  | .local _ .vmem, ⟨1, _⟩ => ⟨S512x1024, .f32⟩
  | .local _ .vmem, ⟨2, _⟩ => ⟨S1024x512, .f32⟩
  | .local _ .vmem, ⟨3, _⟩ => ⟨S1024x512, .f32⟩
  | .local _ .vmem, ⟨4, _⟩ => ⟨S512x512, .f32⟩
  | .local _ .vmem, ⟨5, _⟩ => ⟨S512x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 8, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  transposes_S4096x4096_S4096x4096_1_0 : S4096x4096.Transposes [1, 0] S4096x4096
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1024_S512x1024_0_0 : ∀ a, (![0, 0] : Fin 2 → Nat) a + S512x1024.size a ≤ S512x1024.size a
  h_S512x1024 : 0 < S512x1024.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x4096.size a
  hwx0_0 : ∀ i : grid0.Coords, EltTy.bits .f32 = 32 ∨ (Rect.block (s := S8192x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S8192x4096.size a
  hwx0_2 : ∀ i : grid0.Coords, EltTy.bits .f32 = 32 ∨ (Rect.block (s := S8192x4096) S512x512.size (cc0_transform_2 i) (hinb0_2 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.KerBody.lean ====
/-
  The one-product program's body at one entry of its [256, 4096] block: the block of 256 rows of `x` (its change of
  float format is the identity on the extended reals) times the whole transposed weight, into a zero accumulator:
  entry `(p, q)` is `Σ_k xblock(p, k) · wt(k, q)` over all 4096 features.
-/
import proofs.«127048_g2000505238711990_pallasbulk_938_8_alg».proof.Proof.Gen.KernelIdeal.Skeleton
import proofs.«127048_g2000505238711990_pallasbulk_938_8_alg».proof.Proof.LibMatmulNN
import Idealize.ShloMosaic.Lib.Pipeline.Value
import Idealize.ShloMosaic.PureOps.Ideal.Laws

noncomputable section

open scoped BigOperators

namespace Cert.KernelIdeal.KerValue

open Cert.KernelIdeal Cert.KernelIdeal.Gen Idealize.ShloMosaic Idealize.ShloMosaic.ValueIdx

/-- The body's product at `(p, q)`. -/
theorem body_apply (x0 : Vec Ideal S256x4096 .f32) (x1 : Vec Ideal S4096x4096 .bf16) (p : Fin 256) (q : Fin 4096) :
    k0_pay1 x0 x1 (ix2 p q) = ∑ k : Fin 4096, x0 (ix2 p k) * x1 (ix2 k q) := by
  unfold k0_pay1
  rw [shapeCast_self]
  exact Cert.LibMatmulNN.matmul_nn_apply dot_S256x4096_S4096x4096_S256x4096_1_0_0_1_n_n rfl rfl rfl rfl rfl rfl none
    (truncf .bf16 x0 bitsLt_bf16_f32) x1 p q

end Cert.KernelIdeal.KerValue

end
-- ==== Proof.LibTiles.lean ====
/-
  General lemmas on sums cut into tiles, no program in sight:

  * a sum over `m·n` positions as the sum over `m` tiles of the sums over each tile's `n` positions, position `n·j + p`
    being position `p` of tile `j` (and its instance for 1024 = 8·128);
  * a running total that starts at the first term and adds one term per step is, after step `j`, the sum of the terms
    up to `j`; after the last step it is the sum of all of them.
-/
import Idealize.ShloMosaic.Lib.ValueIdx

open scoped BigOperators

namespace Cert.LibTiles

variable {M : Type*} [AddCommMonoid M]

/-- A sum over `m·n` positions, tile by tile: tile `j` holds the positions `n·j + p`, `p < n`. -/
theorem sum_tiles_mul (m n : ℕ) (g : Fin (m * n) → M) (hlt : ∀ (j : Fin m) (p : Fin n), n * j.val + p.val < m * n) :
    ∑ j : Fin m, ∑ p : Fin n, g ⟨n * j.val + p.val, hlt j p⟩ = ∑ k : Fin (m * n), g k := by
  rw [← Equiv.sum_comp finProdFinEquiv g, Fintype.sum_prod_type]
  refine Finset.sum_congr rfl fun j _ => Finset.sum_congr rfl fun p _ => congrArg g (Fin.ext ?_)
  rw [finProdFinEquiv_apply_val]
  exact Nat.add_comm _ _

/-- 1024 positions as 8 tiles of 128. -/
theorem sum_tiles (g : Fin 1024 → M) :
    ∑ j : Fin 8, ∑ p : Fin 128, g ⟨128 * j.val + p.val, by omega⟩ = ∑ n : Fin 1024, g n :=
  sum_tiles_mul 8 128 g fun j p => by omega

/-- A running total over `n` terms, after step `j`: the sum of the terms `0, …, j`. -/
theorem fold_partial {n : ℕ} (x : Fin n → M) (acc : ℕ → M) (h0 : ∀ h : 0 < n, acc 0 = x ⟨0, h⟩)
    (hs : ∀ j : ℕ, ∀ hj : j + 1 < n, acc (j + 1) = acc j + x ⟨j + 1, hj⟩) (j : ℕ) (hj : j < n) :
    acc j = ∑ i : Fin (j + 1), x (Fin.castLE (Nat.succ_le_of_lt hj) i) := by
  induction j with
  | zero =>
    rw [Fin.sum_univ_castSucc, Fin.sum_univ_zero, zero_add]
    exact h0 hj
  | succ k ih =>
    rw [Fin.sum_univ_castSucc, hs k hj, ih (Nat.lt_of_succ_lt hj)]
    rfl

/-- The same with the terms indexed by the naturals: after step `j` the total is the sum of the terms `0, …, j`. -/
theorem fold_range (x : ℕ → M) (acc : ℕ → M) (n : ℕ) (h0 : acc 0 = x 0)
    (hs : ∀ j : ℕ, j + 1 < n → acc (j + 1) = acc j + x (j + 1)) (j : ℕ) (hj : j < n) :
    acc j = ∑ i ∈ Finset.range (j + 1), x i := by
  induction j with
  | zero => rw [Finset.sum_range_one]; exact h0
  | succ k ih => rw [Finset.sum_range_succ, hs k hj, ih (Nat.lt_of_succ_lt hj)]

/-- A running total over all `n + 1` terms, after the last step: the sum of all of them. -/
theorem fold_all {n : ℕ} (x : Fin (n + 1) → M) (acc : ℕ → M) (h0 : acc 0 = x 0)
    (hs : ∀ j : ℕ, ∀ hj : j + 1 < n + 1, acc (j + 1) = acc j + x ⟨j + 1, hj⟩) : acc n = ∑ j : Fin (n + 1), x j :=
  (fold_partial x acc (fun _ => h0) hs n (Nat.lt_succ_self n)).trans
    (Finset.sum_congr rfl fun i _ => congrArg x (Fin.ext rfl))

/-- Eight tiles: a running total that starts at tile 0's term and adds tile `j + 1`'s at each step is, after tile 7, the sum over the tiles. -/
theorem fold_tiles (x : Fin 8 → M) (acc : ℕ → M) (h0 : acc 0 = x 0)
    (hs : ∀ j : ℕ, ∀ hj : j + 1 < 8, acc (j + 1) = acc j + x ⟨j + 1, hj⟩) : acc 7 = ∑ j : Fin 8, x j :=
  fold_all x acc h0 hs

end Cert.LibTiles
-- ==== Proof.Spec.lean ====
/-
  The linear layer without bias, `y = x · wᵀ`, over the extended reals, for `x : [8192, 4096]` and
  `w : [4096, 4096]`: entry `(r, q)` of the result is the sum over the 4096 input features `k` of
  `x(r, k) · w(q, k)`. Both programs compute this function; one contracts all 4096 features in one product,
  the other 1024 at a time, adding the four partial products into a block that starts at zero. Addition on the
  extended reals is commutative and associative (with `+∞ + -∞ = -∞` it is still a commutative monoid), so a sum
  over 4096 positions is the sum of its four runs of 1024 whatever the terms are: no finiteness is needed.
-/
import Idealize.ShloMosaic.Lib.ValueIdx
import Idealize.ShloMosaic.PureOps.Ideal
import proofs.«127048_g2000505238711990_pallasbulk_938_8_alg».proof.Proof.LibTiles

noncomputable section

open scoped BigOperators

namespace Cert.Linear

open Idealize.ShloMosaic Idealize.ShloMosaic.ValueIdx

/-- `y(r, q) = Σ_k x(r, k) · w(q, k)`: the rows of `x` against the rows of `w`. -/
def lin (x : (⟨2, ![8192, 4096]⟩ : Shape).Idx → EReal) (w : (⟨2, ![4096, 4096]⟩ : Shape).Idx → EReal) :
    (⟨2, ![8192, 4096]⟩ : Shape).Idx → EReal :=
  fun i => ∑ k : Fin 4096, x (ix2 (i 0) k) * w (ix2 (i 1) k)

theorem lin_apply (x : (⟨2, ![8192, 4096]⟩ : Shape).Idx → EReal) (w : (⟨2, ![4096, 4096]⟩ : Shape).Idx → EReal)
    (r : Fin 8192) (q : Fin 4096) : lin x w (ix2 r q) = ∑ k : Fin 4096, x (ix2 r k) * w (ix2 q k) := rfl

/-- The 4096 features as four runs of 1024: feature `1024·s + p` is position `p` of run `s`. -/
theorem sum_four_runs (g : Fin 4096 → EReal) :
    ∑ s : Fin 4, ∑ p : Fin 1024, g ⟨1024 * s.val + p.val, by omega⟩ = ∑ k : Fin 4096, g k :=
  Cert.LibTiles.sum_tiles_mul 4 1024 g fun j p => by omega

/-- A total that starts at zero and receives the four runs' partial sums one after the other is the whole sum. -/
theorem runs_total (g : Fin 4096 → EReal) (f : ℕ → EReal)
    (hf : ∀ (s : ℕ) (hs : s < 4), f s = ∑ p : Fin 1024, g ⟨1024 * s + p.val, by omega⟩) :
    (0 : EReal) + ∑ s ∈ Finset.range 4, f s = ∑ k : Fin 4096, g k := by
  rw [zero_add, ← sum_four_runs g, Finset.sum_range]
  exact Finset.sum_congr rfl fun s _ => hf s.val s.isLt

/-- Two indices with equal coordinates are equal. -/
theorem ix2_congr {n0 n1 : ℕ} {a a' : Fin n0} {b b' : Fin n1} (ha : a = a') (hb : b = b') : ix2 a b = ix2 a' b' := by
  subst ha; subst hb; rfl

end Cert.Linear

end
-- ==== Proof.KerValue.lean ====
/-
  The one-product program's result array is `x · wᵀ`.

  Its grid has 32 points; point `t` reads rows `256·t … 256·t + 255` of `x` and the whole second operand — the weight
  transposed (and changed in float format, which is the identity on the extended reals), so its entry at
  (feature, column) is the weight at (column, feature) — and writes rows `256·t …` of the result: entry `(r, q)` of
  the result is `Σ_k x(r, k) · w(q, k)`. The 32 blocks of 256 rows tile the 8192 rows, so the whole array is that
  function.
-/
import proofs.«127048_g2000505238711990_pallasbulk_938_8_alg».proof.Proof.Gen.KernelIdeal.Value
import proofs.«127048_g2000505238711990_pallasbulk_938_8_alg».proof.Proof.KerBody
import proofs.«127048_g2000505238711990_pallasbulk_938_8_alg».proof.Proof.Spec
import Idealize.ShloMosaic.Lib.ValueLayout
import Idealize.ShloMosaic.Lib.StableHlo.Run

noncomputable section

open scoped BigOperators

namespace Cert.KernelIdeal.KerValue

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-- The second operand as the region finds it: the weight transposed, then changed in format. -/
theorem wt_eq (c : Dev nD) :
    (V m c main_call0_v1 : S4096x4096.Idx → EReal)
      = truncf (F := Ideal) (φ := .f32) .bf16
          (transpose S4096x4096 [1, 0] (m ((c : Thread nD τ).loc main_arg1)) transposes_S4096x4096_S4096x4096_1_0)
          bitsLt_bf16_f32 := by
  dsimp only [Gen.V, Gen.hostOps0]
  after_results
  rfl

theorem origin : (![0, 0] : Fin 2 → Nat) = fun _ => 0 := funext fun a => by fin_cases a <;> rfl

/-- The printed index maps over the grid's 32 points: the row block is the point, every other block index is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 32 := lt_of_lt_of_eq t.isLt (show cfg0.N = 32 from N_0)

/-- The block of `x` of point `t` at `(p, k)`. -/
theorem xblock_apply (c : Dev nD) (t : Fin cfg0.N) (p : Fin 256) (k : Fin 4096) :
    iblk m c 0 t (ix2 p k) = m ((c : Thread nD τ).loc main_arg0) (ix2 ⟨t.val % 32 * 256 + p.val, by omega⟩ k) := by
  obtain ⟨e0, e1, -, -, -, -⟩ := idx_facts t
  have ht := point_lt t
  refine Eq.trans ?_ (congrFun (V_main_arg0 m c) _)
  show V m c main_arg0 (((cfg0.win 0).blk t).view.emb (ix2 p k)) = V m c main_arg0 _
  refine congrArg (V m c main_arg0) (funext fun a => Fin.ext ?_)
  match a with
  | ⟨0, _⟩ => show win0_0.index t (0 : Fin 2) * 256 + 1 * p.val = t.val % 32 * 256 + p.val; omega
  | ⟨1, _⟩ => show win0_0.index t (1 : Fin 2) * 4096 + 1 * k.val = k.val; omega

/-- The second operand's (one, whole) block at `(k, q)`: the weight at (column, feature). -/
theorem wblock_apply (c : Dev nD) (t : Fin cfg0.N) (k q : Fin 4096) :
    iblk m c 1 t (ix2 k q) = m ((c : Thread nD τ).loc main_arg1) (ix2 q k) := by
  obtain ⟨-, -, e2, e3, -, -⟩ := idx_facts t
  have e : ((cfg0.win 1).blk t).view.emb (ix2 k q) = ix2 k q :=
    funext fun a => Fin.ext (by
      match a with
      | ⟨0, _⟩ => show win0_1.index t (0 : Fin 2) * 4096 + 1 * k.val = k.val; omega
      | ⟨1, _⟩ => show win0_1.index t (1 : Fin 2) * 4096 + 1 * q.val = q.val; omega)
  show V m c main_call0_v1 (((cfg0.win 1).blk t).view.emb (ix2 k q)) = _
  rw [e, wt_eq]
  exact transpose_ix2_apply _ _ _ _

/-- The body's result at place `j` of point `t`'s block is `x · wᵀ` at the array index `i` that place stands for. -/
theorem tile_lin (c : Dev nD) (t : Fin cfg0.N) (j : S256x4096.Idx) (i : S8192x4096.Idx)
    (h0 : (i 0).val = t.val * 256 + (j 0).val) (h1 : (i 1).val = (j 1).val) :
    k0_pay1 (iblk m c 0 t) (iblk m c 1 t) j
      = Cert.Linear.lin (m ((c : Thread nD τ).loc main_arg0)) (m ((c : Thread nD τ).loc main_arg1)) i := by
  obtain ⟨p, q, rfl⟩ : ∃ (p : Fin 256) (q : Fin 4096), j = ix2 p q := ⟨j 0, j 1, eq_ix2 j⟩
  obtain ⟨r, q', rfl⟩ : ∃ (r : Fin 8192) (q' : Fin 4096), i = ix2 r q' := ⟨i 0, i 1, eq_ix2 i⟩
  have h0' : r.val = t.val * 256 + p.val := h0
  have h1' : q'.val = q.val := h1
  have ht := point_lt t
  refine (body_apply (iblk m c 0 t) (iblk m c 1 t) p q).trans ?_
  refine Finset.sum_congr rfl fun k _ => ?_
  rw [xblock_apply, wblock_apply]
  exact congrArg₂ (· * ·)
    (congrArg _ (Cert.Linear.ix2_congr (Fin.ext (by show t.val % 32 * 256 + p.val = r.val; omega)) rfl))
    (congrArg _ (Cert.Linear.ix2_congr (Fin.ext h1'.symm) rfl))

/-- WHAT POINT `t` WRITES BACK is block `t` of `x · wᵀ`. -/
theorem flushed_eq (c : Dev nD) (t : Fin cfg0.N) :
    (dats m 0 c).flushed 2 t = ((cfg0.win 2).blk t).view.read (Elt Ideal)
      (Cert.Linear.lin (m ((c : Thread nD τ).loc main_arg0)) (m ((c : Thread nD τ).loc main_arg1))) := by
  rw [Value.flushed2]
  unfold out0_2
  rw [View.canon_unit_zero origin]
  simp only [View.ld_unit_zero (S := S256x4096) origin, View.ld_unit_zero (S := S4096x4096) origin]
  obtain ⟨-, -, -, -, e4, e5⟩ := idx_facts t
  funext y
  show k0_pay1 (iblk m c 0 t) (iblk m c 1 t) ((cfg0.win 2).xinj (grid0.coords t) y)
    = Cert.Linear.lin _ _ (((cfg0.win 2).blk t).view.emb y)
  refine tile_lin m c t _ _ ?_ ?_
  · show win0_2.index t (0 : Fin 2) * 256 + 1 * (y 0).val = t.val * 256 + (y 0).val; omega
  · show win0_2.index t (1 : Fin 2) * 4096 + 1 * (y 1).val = (y 1).val; omega

/-- An index of the array is in point `t`'s block iff each coordinate is in the block's range on its axis. -/
theorem mem_blk (t : Fin cfg0.N) (i : S8192x4096.Idx) :
    i ∈ ((cfg0.win 2).blk t).view.set ↔ ∀ a : Fin 2, win0_2.index t a * S256x4096.size a ≤ (i a).val ∧ (i a).val < win0_2.index t a * S256x4096.size a + S256x4096.size a := by
  show i ∈ ((View.whole main_v0).slice (win0_2.rect t)).set ↔ _
  rw [View.set_slice_whole, Rect.mem_set_unit]
  exact Iff.rfl

/-- Every index of the array lies in the block of the point its row names. -/
theorem covered (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  refine ⟨⟨(i 0).val / 256, by rw [show cfg0.N = 32 from N_0]; omega⟩, flush0_2 _, ?_⟩
  obtain ⟨-, -, -, -, e4, e5⟩ := idx_facts ⟨(i 0).val / 256, by rw [show cfg0.N = 32 from N_0]; omega⟩
  rw [mem_blk]
  intro a
  match a with
  | ⟨0, _⟩ =>
    show win0_2.index _ (0 : Fin 2) * 256 ≤ (i 0).val ∧ (i 0).val < win0_2.index _ (0 : Fin 2) * 256 + 256
    rw [e4]; show (i 0).val / 256 * 256 ≤ (i 0).val ∧ (i 0).val < (i 0).val / 256 * 256 + 256; omega
  | ⟨1, _⟩ =>
    show win0_2.index _ (1 : Fin 2) * 4096 ≤ (i 1).val ∧ (i 1).val < win0_2.index _ (1 : Fin 2) * 4096 + 4096
    rw [e5]; omega

/-- THE ARRAY after the run is `x · wᵀ`. -/
theorem final (c : Dev nD) :
    (dats m 0 c).arrAt 2 cfg0.N
      = Cert.Linear.lin (m ((c : Thread nD τ).loc main_arg0)) (m ((c : Thread nD τ).loc main_arg1)) :=
  (dats m 0 c).arrAt_eq_of_cover 2 _ (fun t _ => flushed_eq m c t) (fun i => covered i)

/-- The run: the result array ends at `x · wᵀ` of the arguments, the arguments unchanged. -/
theorem run : θ_run defs (onTc (τ := τ) (main (F := Ideal))) ⟨m, fun _ => 0, ρ⟩ fun r => ∀ c : Dev nD,
      r.2.mem ((c : Thread nD τ).loc main_v0)
        = Cert.Linear.lin (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.KerValue

end
-- ==== Proof.RefBody.lean ====
/-
  The tiled program's body at one entry of its [512, 512] block. At the first feature run the block is first set to
  zero; at every run the body adds to the block the product of the [512, 1024] tile of `x` with the [1024, 512] tile of
  `wᵀ`: entry `(p, q)` becomes its old value plus `Σ_k xtile(p, k) · wtile(k, q)` over the run's 1024 features.
-/
import proofs.«127048_g2000505238711990_pallasbulk_938_8_alg».proof.Proof.Gen.ReferenceIdeal.Skeleton
import proofs.«127048_g2000505238711990_pallasbulk_938_8_alg».proof.Proof.LibMatmulNN
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-- The block a feature run starts from is zero everywhere. -/
theorem zero_block_apply (y : S512x512.Idx) : k0_pay1 (F := Ideal) y = 0 := by
  unfold k0_pay1
  exact Ideal.ofBits_zero_f32

/-- One run's step: the old entry plus the run's partial sum of products. -/
theorem step_apply (acc : Vec Ideal S512x512 .f32) (x0 : Vec Ideal S512x1024 .f32) (x1 : Vec Ideal S1024x512 .f32)
    (p q : Fin 512) :
    k0_pay2 acc x0 x1 (ix2 p q) = acc (ix2 p q) + ∑ k : Fin 1024, x0 (ix2 p k) * x1 (ix2 k q) := by
  unfold k0_pay2
  rw [shapeCast_self, shapeCast_self]
  refine (addf_apply _ _ _).trans ?_
  exact congrArg (acc (ix2 p q) + ·)
    (Cert.LibMatmulNN.matmul_nn_apply dot_S512x1024_S1024x512_S512x512_1_0_0_1_n_n rfl rfl rfl rfl rfl rfl none x0 x1 p q)

end Cert.ReferenceIdeal.RefValue

end
-- ==== Proof.RefBlocks.lean ====
/-
  The tiled program's result array is `x · wᵀ`.

  Its grid is 16 row blocks × 8 column blocks × 4 feature runs, the run index moving fastest: point `n` works on row
  block `n / 32`, column block `n / 4 mod 8` and feature run `n mod 4`. At that point the `x` tile is rows
  `512·(n/32) …`, features `1024·(n mod 4) …`, and the tile of the transposed weight is features `1024·(n mod 4) …`,
  columns `512·(n/4 mod 8) …`; the transposed weight at (feature, column) is the weight at (column, feature).
  The [512, 512] block of the result that the four points `4u, …, 4u + 3` share starts at zero and receives one
  partial sum per point, so after the fourth it holds, at `(r, q)`, zero plus the four runs' sums: the sum over all
  4096 features of `x(r, k) · w(q, k)`.
-/
import proofs.«127048_g2000505238711990_pallasbulk_938_8_alg».proof.Proof.Gen.ReferenceIdeal.Value
import proofs.«127048_g2000505238711990_pallasbulk_938_8_alg».proof.Proof.RefBody
import proofs.«127048_g2000505238711990_pallasbulk_938_8_alg».proof.Proof.Spec
import Idealize.ShloMosaic.Lib.ValueLayout
import Idealize.ShloMosaic.Lib.StableHlo.Run

noncomputable section

open scoped BigOperators

namespace Cert.ReferenceIdeal.RefValue

open Cert.ReferenceIdeal Cert.ReferenceIdeal.Gen Idealize.ShloMosaic Idealize.ShloMosaic.TcCoe Idealize.ShloMosaic.ValueIdx
open Idealize.SL.Sem

variable (m : (ℓ : Loc nD τ sig) → Buf (Elt Ideal) ℓ)

/-- The two argument arrays on core `c`, as arrays of extended reals. -/
abbrev argX (c : Dev nD) : FVec Ideal S8192x4096 .f32 := m ((c : Thread nD τ).loc main_arg0)
abbrev argW (c : Dev nD) : FVec Ideal S4096x4096 .f32 := m ((c : Thread nD τ).loc main_arg1)

/-- The second operand as the region finds it: the weight transposed. -/
theorem wt_eq (c : Dev nD) :
    (V m c main_call0_v0 : S4096x4096.Idx → EReal)
      = transpose S4096x4096 [1, 0] (m ((c : Thread nD τ).loc main_arg1)) transposes_S4096x4096_S4096x4096_1_0 := by
  dsimp only [Gen.V, Gen.hostOps0]
  after_results
  rfl

/-- The printed index maps over the grid's 512 points: row block, feature run, column block. -/
theorem idx_facts : ∀ t : Fin cfg0.N,
    win0_0.index t (0 : Fin 2) = t.val / 32 ∧ win0_0.index t (1 : Fin 2) = t.val % 4
    ∧ win0_1.index t (0 : Fin 2) = t.val % 4 ∧ win0_1.index t (1 : Fin 2) = t.val / 4 % 8 :=
  (by decide +kernel : ∀ t : Fin grid0.N, _)

/-- The `x` tile of point `t` at `(p, k)`. -/
theorem xtile_apply (c : Dev nD) (t : Fin cfg0.N) (p : Fin 512) (k : Fin 1024) :
    iblk m c 0 t (ix2 p k)
      = m ((c : Thread nD τ).loc main_arg0) (ix2 ⟨t.val / 32 % 16 * 512 + p.val, by omega⟩ ⟨t.val % 4 * 1024 + k.val, by omega⟩) := by
  obtain ⟨e0, e1, -, -⟩ := idx_facts t
  have ht : t.val < 512 := lt_of_lt_of_eq t.isLt (show cfg0.N = 512 from N_0)
  refine Eq.trans ?_ (congrFun (V_main_arg0 m c) _)
  show V m c main_arg0 (((cfg0.win 0).blk t).view.emb (ix2 p k)) = V m c main_arg0 _
  refine congrArg (V m c main_arg0) (funext fun a => Fin.ext ?_)
  match a with
  | ⟨0, _⟩ => show win0_0.index t (0 : Fin 2) * 512 + 1 * p.val = t.val / 32 % 16 * 512 + p.val; omega
  | ⟨1, _⟩ => show win0_0.index t (1 : Fin 2) * 1024 + 1 * k.val = t.val % 4 * 1024 + k.val; omega

/-- The tile of the transposed weight of point `t` at `(k, q)`: the weight at (column, feature). -/
theorem wtile_apply (c : Dev nD) (t : Fin cfg0.N) (k : Fin 1024) (q : Fin 512) :
    iblk m c 1 t (ix2 k q)
      = m ((c : Thread nD τ).loc main_arg1) (ix2 ⟨t.val / 4 % 8 * 512 + q.val, by omega⟩ ⟨t.val % 4 * 1024 + k.val, by omega⟩) := by
  obtain ⟨-, -, e2, e3⟩ := idx_facts t
  have e : ((cfg0.win 1).blk t).view.emb (ix2 k q)
      = ix2 (⟨t.val % 4 * 1024 + k.val, by omega⟩ : Fin 4096) (⟨t.val / 4 % 8 * 512 + q.val, by omega⟩ : Fin 4096) :=
    funext fun a => Fin.ext (by
      match a with
      | ⟨0, _⟩ => show win0_1.index t (0 : Fin 2) * 1024 + 1 * k.val = t.val % 4 * 1024 + k.val; omega
      | ⟨1, _⟩ => show win0_1.index t (1 : Fin 2) * 512 + 1 * q.val = t.val / 4 % 8 * 512 + q.val; omega)
  show V m c main_call0_v0 (((cfg0.win 1).blk t).view.emb (ix2 k q)) = _
  rw [e, wt_eq]
  exact transpose_ix2_apply _ _ _ _

/-- What point `n` adds at place `(p, q)` of its block: the partial sum over the point's feature run. -/
def part (c : Dev nD) (n : ℕ) (p q : Fin 512) : EReal :=
  ∑ k : Fin 1024,
    argX m c (ix2 ⟨n / 32 % 16 * 512 + p.val, by omega⟩ ⟨n % 4 * 1024 + k.val, by omega⟩)
      * argW m c (ix2 ⟨n / 4 % 8 * 512 + q.val, by omega⟩ ⟨n % 4 * 1024 + k.val, by omega⟩)

/-- The partial sum, with the row, the column and the run named. -/
theorem part_eq (c : Dev nD) (n : ℕ) (p q : Fin 512) (r : Fin 8192) (col : Fin 4096) (s : ℕ) (hs : s < 4)
    (hr : n / 32 % 16 * 512 + p.val = r.val) (hq : n / 4 % 8 * 512 + q.val = col.val) (hk : n % 4 = s) :
    part m c n p q = ∑ k : Fin 1024,
      argX m c (ix2 r ⟨1024 * s + k.val, by omega⟩) * argW m c (ix2 col ⟨1024 * s + k.val, by omega⟩) := by
  unfold part
  refine Finset.sum_congr rfl fun k _ => ?_
  exact congrArg₂ (· * ·)
    (congrArg _ (Cert.Linear.ix2_congr (Fin.ext hr) (Fin.ext (by show n % 4 * 1024 + k.val = 1024 * s + k.val; omega))))
    (congrArg _ (Cert.Linear.ix2_congr (Fin.ext hq) (Fin.ext (by show n % 4 * 1024 + k.val = 1024 * s + k.val; omega))))

/-- The first point of a run of four leaves zero plus its partial sum. -/
theorem reset_apply (c : Dev nD) (n : ℕ) (h : n < cfg0.N) (y : S512x512.Idx) :
    Value.reset2 m c n h y = 0 + part m c n (y 0) (y 1) := by
  obtain ⟨p, q, rfl⟩ : ∃ (p q : Fin 512), y = ix2 p q := ⟨y 0, y 1, eq_ix2 y⟩
  unfold Value.reset2
  refine (step_apply (k0_pay1 (F := Ideal)) (iblk m c 0 ⟨n, h⟩) (iblk m c 1 ⟨n, h⟩) p q).trans ?_
  rw [zero_block_apply]
  refine congrArg (0 + ·) (Finset.sum_congr rfl fun k _ => ?_)
  rw [xtile_apply, wtile_apply]

/-- Every later point adds its partial sum to what the point before left. -/
theorem step_fold_apply (c : Dev nD) (n : ℕ) (h : n < cfg0.N) (acc : Vec Ideal S512x512 .f32) (y : S512x512.Idx) :
    Value.step2 m c n h acc y = acc y + part m c n (y 0) (y 1) := by
  obtain ⟨p, q, rfl⟩ : ∃ (p q : Fin 512), y = ix2 p q := ⟨y 0, y 1, eq_ix2 y⟩
  unfold Value.step2
  refine (step_apply acc (iblk m c 0 ⟨n, h⟩) (iblk m c 1 ⟨n, h⟩) p q).trans ?_
  refine congrArg (acc (ix2 p q) + ·) (Finset.sum_congr rfl fun k _ => ?_)
  rw [xtile_apply, wtile_apply]

/-- THE RESULT ARRAY of the tiled program is `x · wᵀ`. -/
theorem result_eq (c : Dev nD) :
    Value.G2 m c = Cert.Linear.lin (m ((c : Thread nD τ).loc main_arg0)) (m ((c : Thread nD τ).loc main_arg1)) := by
  funext i
  obtain ⟨r, q, rfl⟩ : ∃ (r : Fin 8192) (q : Fin 4096), i = ix2 r q := ⟨i 0, i 1, eq_ix2 i⟩
  have hN : cfg0.N = 512 := N_0
  have hrun : Value.run2Of (ix2 r q) = 8 * (r.val / 512) + q.val / 512 := by
    show 8 * (r.val / 512 - 0) + 1 * (q.val / 512 - 0) = _
    omega
  have hlt : 4 * Value.run2Of (ix2 r q) + 3 < cfg0.N := by rw [hN, hrun]; omega
  unfold Value.G2
  rw [dif_pos hlt]
  rw [Pipeline.accAt_add_apply (Value.reset2 m c) (Value.step2 m c) (fun _ => (0 : EReal))
    (fun n y => part m c n (y 0) (y 1)) (4 * Value.run2Of (ix2 r q)) 3
    (fun h y => reset_apply m c _ h y) (fun n h acc y _ _ => step_fold_apply m c n h acc y) 3 le_rfl hlt]
  refine Cert.Linear.runs_total
    (fun k => argX m c (ix2 r k) * argW m c (ix2 q k))
    (fun s => part m c (4 * Value.run2Of (ix2 r q) + s) ⟨r.val % 512, Nat.mod_lt _ (by decide)⟩ ⟨q.val % 512, Nat.mod_lt _ (by decide)⟩)
    fun s hs => ?_
  rw [hrun]
  exact part_eq m c _ _ _ r q s hs (by show _ + r.val % 512 = r.val; omega) (by show _ + q.val % 512 = q.val; omega) (by omega)

end Cert.ReferenceIdeal.RefValue

end
-- ==== Proof.lean ====
/-
  Two programs for a linear layer without bias, `y = x · wᵀ` with `x : [8192, 4096]` and `w : [4096, 4096]`, are equal
  on the extended reals.

  The first transposes the weight, changes its float format (the identity on the extended reals) and, for each of 32
  blocks of 256 rows of `x`, takes ONE product of the block with the whole transposed weight over all 4096 input
  features. The second transposes the weight and walks a 16 × 8 × 4 grid of [512, 512] result blocks and feature runs
  of 1024: a block is set to zero at its first run and receives one partial product per run. Entry `(r, q)` of the
  first is `Σ_k x(r, k) · w(q, k)` over the 4096 features; of the second it is zero plus the four runs' partial sums of
  the same terms. Addition on the extended reals is commutative and associative, so the two are equal whatever the
  entries are: the inputs' finiteness is never used.

  Both programs run and leave their arguments unchanged (the three frame claims, from the generated frame proofs);
  the idealized first program is its own text read on the extended reals (no rewrite to justify); and the two results
  are the one function `Cert.Linear.lin` of the arguments.
-/
import proofs.«127048_g2000505238711990_pallasbulk_938_8_alg».proof.Defs
import proofs.«127048_g2000505238711990_pallasbulk_938_8_alg».proof.Proof.Gen.Kernel
import proofs.«127048_g2000505238711990_pallasbulk_938_8_alg».proof.Proof.Gen.Kernel.Frame
import proofs.«127048_g2000505238711990_pallasbulk_938_8_alg».proof.Proof.Gen.KernelIdeal
import proofs.«127048_g2000505238711990_pallasbulk_938_8_alg».proof.Proof.Gen.KernelIdeal.Frame
import proofs.«127048_g2000505238711990_pallasbulk_938_8_alg».proof.Proof.Gen.KernelIdeal.Value
import proofs.«127048_g2000505238711990_pallasbulk_938_8_alg».proof.Proof.Gen.ReferenceIdeal
import proofs.«127048_g2000505238711990_pallasbulk_938_8_alg».proof.Proof.Gen.ReferenceIdeal.Frame
import proofs.«127048_g2000505238711990_pallasbulk_938_8_alg».proof.Proof.Gen.ReferenceIdeal.Value
import proofs.«127048_g2000505238711990_pallasbulk_938_8_alg».proof.Proof.Gen.Pre_finite_inputs
import proofs.«127048_g2000505238711990_pallasbulk_938_8_alg».proof.Proof.KerValue
import proofs.«127048_g2000505238711990_pallasbulk_938_8_alg».proof.Proof.RefBlocks
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ => Cert.ReferenceIdeal.Gen.frame m ρ

/-- From arguments that agree, both results are `x · wᵀ` of them. -/
theorem algebraic : Cert.algebraic_KernelIdeal_ReferenceIdeal := by
  intro m ρ m' ρ' _ hagree
  refine ⟨fun c => Cert.Linear.lin (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.KerValue.run m ρ, ?_⟩
  refine (θ_run Cert.ReferenceIdeal.defs _ _).mono (fun r h c => ⟨(h c).1.trans ?_, (h c).2⟩)
    (Cert.ReferenceIdeal.Value.run (F := Ideal) m' ρ')
  rw [Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
